-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v91)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v91) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v94) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S1600000 : S_.BroadcastsInDim S1600000 (![] : Fin 0 → Fin S1600000.rank)
  reducesTo_S1600000_S_d0 : S1600000.ReducesTo [0] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_

variable [Facts]

def fn_part1 {F : FTy → Type} [FloatOps F] (main_arg5 : FVec F S64x32 .f32) (main_arg6 : FVec F S32 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg5
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg6
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S100000x64 .f32) (main_arg1 : IVec S2x1600000 32) (main_arg2 : FVec F S1600000 .f32) (main_arg3 : FVec F S64x64 .f32) (main_arg4 : FVec F S64 .f32) (main_arg5 : FVec F S64x32 .f32) (main_arg6 : FVec F S32 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S1600000 .f32 := Host.absf main_arg2
  let main_cst_0 : FVec F S_ .f32 := constant S_ .f32 0x7F800000#32
  let main_v5 : FVec F S1600000 .f32 := broadcastInDim S1600000 ![] bcast_S_S1600000 main_cst_0
  let main_v6 : IVec S1600000 1 := cmpf .olt main_v4 main_v5
  let main_c_1 : IVec S_ 1 := constantI S_ 1 1#1
  let main_v7 : IVec S_ 1 := (fun x v => Host.reduce IntOp.andi x v reducesTo_S1600000_S_d0 h_S_) main_v6 main_c_1
  let main_v8 : IVec S_ 1 := andi main_v3 main_v7
  let main_v9 : FVec F S64x64 .f32 := Host.absf main_arg3
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_arg6 main_v13 main_v16
-- ==== Kernel.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S10000x64 : Shape := ⟨2, ![10000, 64]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S10000x32 : Shape := ⟨2, ![10000, 32]⟩
abbrev S1700000x32 : Shape := ⟨2, ![1700000, 32]⟩
abbrev S1x32 : Shape := ⟨2, ![1, 32]⟩

abbrev nBuf : Space → Nat
  | .hbm => 125
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S1600000, .f32⟩
  | .hbm, ⟨3, _⟩ => ⟨S64x64, .f32⟩
  | .hbm, ⟨4, _⟩ => ⟨S64, .f32⟩
  | .hbm, ⟨5, _⟩ => ⟨S64x32, .f32⟩
  | .hbm, ⟨6, _⟩ => ⟨S32, .f32⟩
  | .hbm, ⟨7, _⟩ => ⟨S1x1600000, .i32⟩
  | .hbm, ⟨8, _⟩ => ⟨S1600000, .i32⟩
  | .hbm, ⟨9, _⟩ => ⟨S1x1600000, .i32⟩
  | .hbm, ⟨10, _⟩ => ⟨S1600000, .i32⟩
  | .hbm, ⟨11, _⟩ => ⟨S100000x64, .f32⟩
  | .hbm, ⟨12, _⟩ => ⟨S100000, .i32⟩
  | .hbm, ⟨13, _⟩ => ⟨S1700000, .i32⟩
  | .hbm, ⟨14, _⟩ => ⟨S1700000, .i32⟩
  | .hbm, ⟨15, _⟩ => ⟨S_, .f32⟩
  | .hbm, ⟨16, _⟩ => ⟨S100000, .f32⟩
  | .hbm, ⟨17, _⟩ => ⟨S1700000, .f32⟩
  | .hbm, ⟨18, _⟩ => ⟨S_, .f32⟩
  | .hbm, ⟨19, _⟩ => ⟨S100000, .f32⟩
  | .hbm, ⟨20, _⟩ => ⟨S1700000x1, .i32⟩
  | .hbm, ⟨21, _⟩ => ⟨S100000, .f32⟩
  | .hbm, ⟨22, _⟩ => ⟨S_, .f32⟩
  | .hbm, ⟨23, _⟩ => ⟨S100000, .f32⟩
  | .hbm, ⟨24, _⟩ => ⟨S100000, .i1⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S1700000, .i32⟩
  | .hbm, ⟨32, _⟩ => ⟨S1700000, .i1⟩
  | .hbm, ⟨33, _⟩ => ⟨S_, .i32⟩
  | .hbm, ⟨34, _⟩ => ⟨S1700000, .i32⟩
  | .hbm, ⟨35, _⟩ => ⟨S1700000, .i32⟩
  | .hbm, ⟨36, _⟩ => ⟨S1700000, .i32⟩
  | .hbm, ⟨37, _⟩ => ⟨S1700000x1, .i32⟩
  | .hbm, ⟨38, _⟩ => ⟨S1700000, .f32⟩
  | .hbm, ⟨39, _⟩ => ⟨S1700000, .f32⟩
  | .hbm, ⟨40, _⟩ => ⟨S_, .i32⟩
  | .hbm, ⟨41, _⟩ => ⟨S1700000, .i32⟩
  | .hbm, ⟨42, _⟩ => ⟨S1700000, .i1⟩
  | .hbm, ⟨43, _⟩ => ⟨S_, .i32⟩
  | .hbm, ⟨44, _⟩ => ⟨S1700000, .i32⟩
  | .hbm, ⟨45, _⟩ => ⟨S1700000, .i32⟩
  | .hbm, ⟨46, _⟩ => ⟨S1700000, .i32⟩
  | .hbm, ⟨47, _⟩ => ⟨S1700000x1, .i32⟩
  | .hbm, ⟨48, _⟩ => ⟨S1700000, .f32⟩
  | .hbm, ⟨49, _⟩ => ⟨S1700000, .f32⟩
  | .hbm, ⟨50, _⟩ => ⟨S_, .i32⟩
  | .hbm, ⟨51, _⟩ => ⟨S1700000, .i32⟩
  | .hbm, ⟨52, _⟩ => ⟨S1700000, .i1⟩
  | .hbm, ⟨53, _⟩ => ⟨S_, .i32⟩
  | .hbm, ⟨54, _⟩ => ⟨S1700000, .i32⟩
  | .hbm, ⟨55, _⟩ => ⟨S1700000, .i32⟩
  | .hbm, ⟨56, _⟩ => ⟨S1700000, .i32⟩
  | .hbm, ⟨57, _⟩ => ⟨S1700000x1, .i32⟩
  | .hbm, ⟨58, _⟩ => ⟨S1700000x64, .f32⟩
  | .hbm, ⟨59, _⟩ => ⟨S1700000x1, .f32⟩
  | .hbm, ⟨60, _⟩ => ⟨S1700000x64, .f32⟩
  | .hbm, ⟨61, _⟩ => ⟨S1700000x64, .f32⟩
  | .hbm, ⟨62, _⟩ => ⟨S_, .f32⟩
  | .hbm, ⟨63, _⟩ => ⟨S100000x64, .f32⟩
  | .hbm, ⟨64, _⟩ => ⟨S1700000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x32, .f32⟩
  | .hbm, ⟨69, _⟩ => ⟨S100000, .i32⟩
  | .hbm, ⟨70, _⟩ => ⟨S1700000, .i32⟩
  | .hbm, ⟨71, _⟩ => ⟨S1700000, .i32⟩
  | .hbm, ⟨72, _⟩ => ⟨S_, .f32⟩
  | .hbm, ⟨73, _⟩ => ⟨S100000, .f32⟩
  | .hbm, ⟨74, _⟩ => ⟨S1700000, .f32⟩
  | .hbm, ⟨75, _⟩ => ⟨S_, .f32⟩
  | .hbm, ⟨76, _⟩ => ⟨S100000, .f32⟩
  | .hbm, ⟨77, _⟩ => ⟨S1700000x1, .i32⟩
  | .hbm, ⟨78, _⟩ => ⟨S100000, .f32⟩
  | .hbm, ⟨79, _⟩ => ⟨S_, .f32⟩
  | .hbm, ⟨80, _⟩ => ⟨S100000, .f32⟩
  | .hbm, ⟨81, _⟩ => ⟨S100000, .i1⟩
  | .hbm, ⟨82, _⟩ => ⟨S100000, .f32⟩
  | .hbm, ⟨83, _⟩ => ⟨S_, .f32⟩
  | .hbm, ⟨84, _⟩ => ⟨S_, .f32⟩
  | .hbm, ⟨85, _⟩ => ⟨S100000, .f32⟩
  | .hbm, ⟨86, _⟩ => ⟨S100000, .f32⟩
  | .hbm, ⟨87, _⟩ => ⟨S_, .i32⟩
  | .hbm, ⟨88, _⟩ => ⟨S1700000, .i32⟩
  | .hbm, ⟨89, _⟩ => ⟨S1700000, .i1⟩
  | .hbm, ⟨90, _⟩ => ⟨S_, .i32⟩
  | .hbm, ⟨91, _⟩ => ⟨S1700000, .i32⟩
  | .hbm, ⟨92, _⟩ => ⟨S1700000, .i32⟩
  | .hbm, ⟨93, _⟩ => ⟨S1700000, .i32⟩
  | .hbm, ⟨94, _⟩ => ⟨S1700000x1, .i32⟩
  | .hbm, ⟨95, _⟩ => ⟨S1700000, .f32⟩
  | .hbm, ⟨96, _⟩ => ⟨S1700000, .f32⟩
  | .hbm, ⟨97, _⟩ => ⟨S_, .i32⟩
  | .hbm, ⟨98, _⟩ => ⟨S1700000, .i32⟩
  | .hbm, ⟨99, _⟩ => ⟨S1700000, .i1⟩
  | .hbm, ⟨100, _⟩ => ⟨S_, .i32⟩
  | .hbm, ⟨101, _⟩ => ⟨S1700000, .i32⟩
  | .hbm, ⟨102, _⟩ => ⟨S1700000, .i32⟩
  | .hbm, ⟨103, _⟩ => ⟨S1700000, .i32⟩
  | .hbm, ⟨104, _⟩ => ⟨S1700000x1, .i32⟩
  | .hbm, ⟨105, _⟩ => ⟨S1700000, .f32⟩
  | .hbm, ⟨106, _⟩ => ⟨S1700000, .f32⟩
  | .hbm, ⟨107, _⟩ => ⟨S_, .i32⟩
  | .hbm, ⟨108, _⟩ => ⟨S1700000, .i32⟩
  | .hbm, ⟨109, _⟩ => ⟨S1700000, .i1⟩
  | .hbm, ⟨110, _⟩ => ⟨S_, .i32⟩
  | .hbm, ⟨111, _⟩ => ⟨S1700000, .i32⟩
  | .hbm, ⟨112, _⟩ => ⟨S1700000, .i32⟩
  | .hbm, ⟨113, _⟩ => ⟨S1700000, .i32⟩
  | .hbm, ⟨114, _⟩ => ⟨S1700000x1, .i32⟩
  | .hbm, ⟨115, _⟩ => ⟨S1700000x32, .f32⟩
  | .hbm, ⟨116, _⟩ => ⟨S1700000x1, .f32⟩
  | .hbm, ⟨117, _⟩ => ⟨S1700000x32, .f32⟩
  | .hbm, ⟨118, _⟩ => ⟨S1700000x32, .f32⟩
  | .hbm, ⟨119, _⟩ => ⟨S_, .f32⟩
  | .hbm, ⟨120, _⟩ => ⟨S100000x32, .f32⟩
  | .hbm, ⟨121, _⟩ => ⟨S1700000x1, .i32⟩
  | .hbm, ⟨122, _⟩ => ⟨S100000x32, .f32⟩
  | .hbm, ⟨123, _⟩ => ⟨S1x32, .f32⟩
  | .hbm, ⟨124, _⟩ => ⟨S100000x32, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S1x32, .f32⟩
  | .local _ .vmem, ⟨18, _⟩ => ⟨S10000x32, .f32⟩
  | .local _ .vmem, ⟨19, _⟩ => ⟨S10000x32, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_cst_9 : Ref sig .tc := ⟨.hbm, 72, rfl⟩
abbrev main_v52 : Ref sig .tc := ⟨.hbm, 73, rfl⟩
abbrev main_v53 : Ref sig .tc := ⟨.hbm, 74, rfl⟩
abbrev main_cst_10 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_cst_11 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_12 : Ref sig .tc := ⟨.hbm, 83, rfl⟩
abbrev main_call1_v0 : Ref sig .tc := ⟨.hbm, 84, rfl⟩
abbrev main_call1_v1 : Ref sig .tc := ⟨.hbm, 85, rfl⟩
abbrev main_v60 : Ref sig .tc := ⟨.hbm, 86, rfl⟩
abbrev main_c_13 : Ref sig .tc := ⟨.hbm, 87, rfl⟩
abbrev main_v61 : Ref sig .tc := ⟨.hbm, 88, rfl⟩
abbrev main_v62 : Ref sig .tc := ⟨.hbm, 89, rfl⟩
abbrev main_c_14 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_c_15 : Ref sig .tc := ⟨.hbm, 97, rfl⟩
abbrev main_v69 : Ref sig .tc := ⟨.hbm, 98, rfl⟩
abbrev main_v70 : Ref sig .tc := ⟨.hbm, 99, rfl⟩
abbrev main_c_16 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_c_17 : Ref sig .tc := ⟨.hbm, 107, rfl⟩
abbrev main_v77 : Ref sig .tc := ⟨.hbm, 108, rfl⟩
abbrev main_v78 : Ref sig .tc := ⟨.hbm, 109, rfl⟩
abbrev main_c_18 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_cst_19 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x32 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x32 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x32 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x32_S64x32_0_0 : ∀ a, (![0, 0] : Fin 2 → Nat) a + S64x32.size a ≤ S64x32.size a
  h_S64x32 : 0 < S64x32.numel
  inb_S10000x32_S10000x32_0_0 : ∀ a, (![0, 0] : Fin 2 → Nat) a + S10000x32.size a ≤ S10000x32.size a
  h_S10000x32 : 0 < S10000x32.numel
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  shapeCasts_S32_S1x32 : S32.ShapeCasts S1x32
  shapeCasts_S10000x32_S10000x32 : S10000x32.ShapeCasts S10000x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  dot_S10000x64_S64x64_S10000x64_1_0_0_1_n_n_wf : DotDims.WF S10000x64 S64x64 S10000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S10000x64_S64x32_S10000x32_1_0_0_1_n_n_wf : DotDims.WF S10000x64 S64x32 S10000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x32.size a ≤ S64x32.size a
  hwx2_1 : ∀ i : grid2.Coords, EltTy.bits .f32 = 32 ∨ (Rect.block (s := S64x32) S64x32.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x32.size a ≤ S100000x32.size a
  hwx2_2 : ∀ i : grid2.Coords, EltTy.bits .f32 = 32 ∨ (Rect.block (s := S100000x32) S10000x32.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x32.size a ≤ S100000x32.size a
  hwx3_0 : ∀ i : grid3.Coords, EltTy.bits .f32 = 32 ∨ (Rect.block (s := S100000x32) S10000x32.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x32.size a ≤ S1x32.size a
  hwx3_1 : ∀ i : grid3.Coords, EltTy.bits .f32 = 32 ∨ (Rect.block (s := S1x32) S1x32.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x32.size a ≤ S100000x32.size a
  hwx3_2 : ∀ i : grid3.Coords, EltTy.bits .f32 = 32 ∨ (Rect.block (s := S100000x32) S10000x32.size (cc3_transform_2 i) (hinb3_2 i)).WholeWords (EltTy.packing .f32)

variable [Facts₀]

def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S64x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x32.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v89) S10000x32.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v90) S1x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v91) S10000x32.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S1600000 : Shape := ⟨1, ![1600000]⟩
abbrev S64x64 : Shape := ⟨2, ![64, 64]⟩
abbrev S64 : Shape := ⟨1, ![64]⟩
abbrev S64x32 : Shape := ⟨2, ![64, 32]⟩
abbrev S32 : Shape := ⟨1, ![32]⟩
abbrev S1x1600000 : Shape := ⟨2, ![1, 1600000]⟩
abbrev S100000 : Shape := ⟨1, ![100000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩
abbrev S100000x32 : Shape := ⟨2, ![100000, 32]⟩
abbrev S1700000x32 : Shape := ⟨2, ![1700000, 32]⟩
abbrev S1x32 : Shape := ⟨2, ![1, 32]⟩

abbrev nBuf : Space → Nat
  | .hbm => 130
  | .vmem => 0
  | .smem => 0
  | _ => 0

abbrev hbmTy0_0 (i : Nat) : BufTy := match i % 128 with
  | 0 => ⟨S100000x64, .f32⟩
  | 1 => ⟨S2x1600000, .i32⟩
  | 2 => ⟨S1600000, .f32⟩
  | 3 => ⟨S64x64, .f32⟩
  | 4 => ⟨S64, .f32⟩
  | 5 => ⟨S64x32, .f32⟩
  | 6 => ⟨S32, .f32⟩
  | 7 => ⟨S1x1600000, .i32⟩
  | 8 => ⟨S1600000, .i32⟩
  | 9 => ⟨S1x1600000, .i32⟩
  | 10 => ⟨S1600000, .i32⟩
  | 11 => ⟨S100000x64, .f32⟩
  | 12 => ⟨S100000, .i32⟩
  | 13 => ⟨S1700000, .i32⟩
  | 14 => ⟨S1700000, .i32⟩
  | 15 => ⟨S_, .f32⟩
  | 16 => ⟨S100000, .f32⟩
  | 17 => ⟨S1700000, .f32⟩
  | 18 => ⟨S_, .f32⟩
  | 19 => ⟨S100000, .f32⟩
  | 20 => ⟨S1700000x1, .i32⟩
  | 21 => ⟨S100000, .f32⟩
  | 22 => ⟨S_, .f32⟩
  | 23 => ⟨S100000, .f32⟩
  | 24 => ⟨S100000, .i1⟩
  | 25 => ⟨S100000, .f32⟩
  | 26 => ⟨S_, .f32⟩
  | 27 => ⟨S_, .f32⟩
  | 28 => ⟨S100000, .f32⟩
  | 29 => ⟨S100000, .f32⟩
  | 30 => ⟨S_, .i32⟩
  | 31 => ⟨S1700000, .i32⟩
  | 32 => ⟨S1700000, .i1⟩
  | 33 => ⟨S_, .i32⟩
  | 34 => ⟨S1700000, .i32⟩
  | 35 => ⟨S1700000, .i32⟩
  | 36 => ⟨S1700000, .i32⟩
  | 37 => ⟨S1700000x1, .i32⟩
  | 38 => ⟨S1700000, .f32⟩
  | 39 => ⟨S1700000, .f32⟩
  | 40 => ⟨S_, .i32⟩
  | 41 => ⟨S1700000, .i32⟩
  | 42 => ⟨S1700000, .i1⟩
  | 43 => ⟨S_, .i32⟩
  | 44 => ⟨S1700000, .i32⟩
  | 45 => ⟨S1700000, .i32⟩
  | 46 => ⟨S1700000, .i32⟩
  | 47 => ⟨S1700000x1, .i32⟩
  | 48 => ⟨S1700000, .f32⟩
  | 49 => ⟨S1700000, .f32⟩
  | 50 => ⟨S_, .i32⟩
  | 51 => ⟨S1700000, .i32⟩
  | 52 => ⟨S1700000, .i1⟩
  | 53 => ⟨S_, .i32⟩
  | 54 => ⟨S1700000, .i32⟩
  | 55 => ⟨S1700000, .i32⟩
  | 56 => ⟨S1700000, .i32⟩
  | 57 => ⟨S1700000x1, .i32⟩
  | 58 => ⟨S1700000x64, .f32⟩
  | 59 => ⟨S1700000x1, .f32⟩
  | 60 => ⟨S1700000x64, .f32⟩
  | 61 => ⟨S1700000x64, .f32⟩
  | 62 => ⟨S_, .f32⟩
  | 63 => ⟨S100000x64, .f32⟩
  | 64 => ⟨S1700000x1, .i32⟩
  | 65 => ⟨S100000x64, .f32⟩
  | 66 => ⟨S1x64, .f32⟩
  | 67 => ⟨S100000x64, .f32⟩
  | 68 => ⟨S100000x64, .f32⟩
  | 69 => ⟨S_, .f32⟩
  | 70 => ⟨S100000x64, .f32⟩
  | 71 => ⟨S100000x64, .f32⟩
  | 72 => ⟨S100000x32, .f32⟩
  | 73 => ⟨S100000, .i32⟩
  | 74 => ⟨S1700000, .i32⟩
  | 75 => ⟨S1700000, .i32⟩
  | 76 => ⟨S_, .f32⟩
  | 77 => ⟨S100000, .f32⟩
  | 78 => ⟨S1700000, .f32⟩
  | 79 => ⟨S_, .f32⟩
  | 80 => ⟨S100000, .f32⟩
  | 81 => ⟨S1700000x1, .i32⟩
  | 82 => ⟨S100000, .f32⟩
  | 83 => ⟨S_, .f32⟩
  | 84 => ⟨S100000, .f32⟩
  | 85 => ⟨S100000, .i1⟩
  | 86 => ⟨S100000, .f32⟩
  | 87 => ⟨S_, .f32⟩
  | 88 => ⟨S_, .f32⟩
  | 89 => ⟨S100000, .f32⟩
  | 90 => ⟨S100000, .f32⟩
  | 91 => ⟨S_, .i32⟩
  | 92 => ⟨S1700000, .i32⟩
  | 93 => ⟨S1700000, .i1⟩
  | 94 => ⟨S_, .i32⟩
  | 95 => ⟨S1700000, .i32⟩
  | 96 => ⟨S1700000, .i32⟩
  | 97 => ⟨S1700000, .i32⟩
  | 98 => ⟨S1700000x1, .i32⟩
  | 99 => ⟨S1700000, .f32⟩
  | 100 => ⟨S1700000, .f32⟩
  | 101 => ⟨S_, .i32⟩
  | 102 => ⟨S1700000, .i32⟩
  | 103 => ⟨S1700000, .i1⟩
  | 104 => ⟨S_, .i32⟩
  | 105 => ⟨S1700000, .i32⟩
  | 106 => ⟨S1700000, .i32⟩
  | 107 => ⟨S1700000, .i32⟩
  | 108 => ⟨S1700000x1, .i32⟩
  | 109 => ⟨S1700000, .f32⟩
  | 110 => ⟨S1700000, .f32⟩
  | 111 => ⟨S_, .i32⟩
  | 112 => ⟨S1700000, .i32⟩
  | 113 => ⟨S1700000, .i1⟩
  | 114 => ⟨S_, .i32⟩
  | 115 => ⟨S1700000, .i32⟩
  | 116 => ⟨S1700000, .i32⟩
  | 117 => ⟨S1700000, .i32⟩
  | 118 => ⟨S1700000x1, .i32⟩
  | 119 => ⟨S1700000x32, .f32⟩
  | 120 => ⟨S1700000x1, .f32⟩
  | 121 => ⟨S1700000x32, .f32⟩
  | 122 => ⟨S1700000x32, .f32⟩
  | 123 => ⟨S_, .f32⟩
  | 124 => ⟨S100000x32, .f32⟩
  | 125 => ⟨S1700000x1, .i32⟩
  | 126 => ⟨S100000x32, .f32⟩
  | 127 => ⟨S1x32, .f32⟩
  | _ => ⟨S100000x64, .f32⟩

abbrev hbmTy0_1 (i : Nat) : BufTy := match i % 128 with
  | 0 => ⟨S100000x32, .f32⟩
  | 1 => ⟨S100000x32, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst : Ref sig .tc := ⟨.hbm, 15, rfl⟩
abbrev main_v8 : Ref sig .tc := ⟨.hbm, 16, rfl⟩
abbrev main_v9 : Ref sig .tc := ⟨.hbm, 17, rfl⟩
abbrev main_cst_0 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_1 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_3 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_c_4 : Ref sig .tc := ⟨.hbm, 40, rfl⟩
abbrev main_v25 : Ref sig .tc := ⟨.hbm, 41, rfl⟩
abbrev main_v26 : Ref sig .tc := ⟨.hbm, 42, rfl⟩
abbrev main_c_5 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_6 : Ref sig .tc := ⟨.hbm, 50, rfl⟩
abbrev main_v33 : Ref sig .tc := ⟨.hbm, 51, rfl⟩
abbrev main_v34 : Ref sig .tc := ⟨.hbm, 52, rfl⟩
abbrev main_c_7 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_cst_9 : Ref sig .tc := ⟨.hbm, 76, rfl⟩
abbrev main_v54 : Ref sig .tc := ⟨.hbm, 77, rfl⟩
abbrev main_v55 : Ref sig .tc := ⟨.hbm, 78, rfl⟩
abbrev main_cst_10 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_11 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_cst_12 : Ref sig .tc := ⟨.hbm, 87, rfl⟩
abbrev main_call2_v0 : Ref sig .tc := ⟨.hbm, 88, rfl⟩
abbrev main_call2_v1 : Ref sig .tc := ⟨.hbm, 89, rfl⟩
abbrev main_v62 : Ref sig .tc := ⟨.hbm, 90, rfl⟩
abbrev main_c_13 : Ref sig .tc := ⟨.hbm, 91, rfl⟩
abbrev main_v63 : Ref sig .tc := ⟨.hbm, 92, rfl⟩
abbrev main_v64 : Ref sig .tc := ⟨.hbm, 93, rfl⟩
abbrev main_c_14 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_c_15 : Ref sig .tc := ⟨.hbm, 101, rfl⟩
abbrev main_v71 : Ref sig .tc := ⟨.hbm, 102, rfl⟩
abbrev main_v72 : Ref sig .tc := ⟨.hbm, 103, rfl⟩
abbrev main_c_16 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_c_17 : Ref sig .tc := ⟨.hbm, 111, rfl⟩
abbrev main_v79 : Ref sig .tc := ⟨.hbm, 112, rfl⟩
abbrev main_v80 : Ref sig .tc := ⟨.hbm, 113, rfl⟩
abbrev main_c_18 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_19 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  concatenates_S1600000_S100000_S1700000_d0 : Shape.Concatenates [S1600000, S100000] S1700000 0
  bcast_S_S100000 : S_.BroadcastsInDim S100000 (![] : Fin 0 → Fin S100000.rank)
  bcast_S1700000_S1700000x1_0 : S1700000.BroadcastsInDim S1700000x1 (![0] : Fin 1 → Fin S1700000x1.rank)
  bcast_S_S1700000 : S_.BroadcastsInDim S1700000 (![] : Fin 0 → Fin S1700000.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S1700000x1_S1700000x32_0_1 : S1700000x1.BroadcastsInDim S1700000x32 (![0, 1] : Fin 2 → Fin S1700000x32.rank)
  bcast_S_S100000x32 : S_.BroadcastsInDim S100000x32 (![] : Fin 0 → Fin S100000x32.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  dot_S100000x64_S64x64_S100000x64_1_0_0_1_n_n_wf : DotDims.WF S100000x64 S64x64 S100000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  dot_S100000x64_S64x32_S100000x32_1_0_0_1_n_n_wf : DotDims.WF S100000x64 S64x32 S100000x32 [1] [0] [0] [1] [] []
  gather_S100000x32_S1700000x1_S1700000x32_1_0_n_n_0_1_132_wf : GatherDims.WF S100000x32 S1700000x1 S1700000x32 [1] [0] [] [0] [] 1 ![1, 32]
  scatter_S100000x32_S1700000x1_S1700000x32_1_0_0_1_wf : ScatterDims.WF S100000x32 S1700000x1 S1700000x32 [1] [0] [0] 1

variable [Facts₀]

def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def gather_S100000x32_S1700000x1_S1700000x32_1_0_n_n_0_1_132 : GatherDims S100000x32 S1700000x1 S1700000x32 where
  offsetDims := [1]
  collapsedSliceDims := [0]
  operandBatchingDims := []
  startIndicesBatchingDims := []
  startIndexMap := [0]
  indexVectorDim := 1
  sliceSizes := ![1, 32]
  wf := gather_S100000x32_S1700000x1_S1700000x32_1_0_n_n_0_1_132_wf
def scatter_S100000x32_S1700000x1_S1700000x32_1_0_0_1 : ScatterDims S100000x32 S1700000x1 S1700000x32 where
  updateWindowDims := [1]
  insertedWindowDims := [0]
  scatterDimsToOperandDims := [0]
  indexVectorDim := 1
  wf := scatter_S100000x32_S1700000x1_S1700000x32_1_0_0_1_wf

class Facts : Prop extends Facts₀ where

variable [Facts]
-- ==== Proof.KernelRun.lean ====
/-
  The idealized kernel's run, with its RESULT named.

  The program is four kernel regions among stretches of host operations. Its contents at each boundary are a fold
  from the launch memory: a stretch applies its operations, a region leaves each of its arrays at what its blocks'
  write-backs make of it. Every execution ends with every buffer at the last boundary's contents; in particular the
  result buffer holds the last region's output array and the arguments are as launched.
-/
import proofs.«137254_j7206955123357_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting, with every unscoped buffer of every core at the
    contents of the last boundary. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W11 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h => h)

/-- The run with the result buffer named: it ends at the last boundary's contents, the arguments as launched. -/
theorem run_result : θ_run defs (onTc (τ := τ) (main (F := F))) ⟨m, fun _ => 0, ρ⟩ (fun r => ∀ c : Dev nD,
      r.2.mem ((c.tc : Thread nD τ).loc main_v91) = W11 m ρ c (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c =>
      ⟨h c _ (mem_uc main_v91 (by decide)),
       (h c _ (mem_uc main_arg0 (by decide))).trans (W11_main_arg0 m ρ c),
       (h c _ (mem_uc main_arg1 (by decide))).trans (W11_main_arg1 m ρ c),
       (h c _ (mem_uc main_arg2 (by decide))).trans (W11_main_arg2 m ρ c),
       (h c _ (mem_uc main_arg3 (by decide))).trans (W11_main_arg3 m ρ c),
       (h c _ (mem_uc main_arg4 (by decide))).trans (W11_main_arg4 m ρ c),
       (h c _ (mem_uc main_arg5 (by decide))).trans (W11_main_arg5 m ρ c),
       (h c _ (mem_uc main_arg6 (by decide))).trans (W11_main_arg6 m ρ c)⟩)
    (run_buffers m ρ)

end Cert.KernelIdeal.RunValue

end
-- ==== Proof.Bodies.lean ====
/-
  The four kernel bodies read at one entry, over the extended reals.

  A graph-convolution layer is  out = A · (x · W) + b  with A the normalized adjacency; the kernel computes the
  dense product x · W and the bias (with the rectifier, in the first layer) in row blocks of 10000 nodes, and
  leaves the sparse product A · (·) to the host. Here: an entry of a row block of the dense product is the
  contraction of one row of the block with one column of the weights (a change of float format is the identity
  on the extended reals, and the accumulator starts at zero), so it is the entry of the whole product x · W
  in that row; an entry of a bias block is the aggregated entry plus the bias of its column, and for the first
  layer the maximum of that with zero.
-/
import proofs.«137254_j7206955123357_1_alg».proof.Proof.Gen.KernelIdeal.Skeleton
import proofs.«137254_j7206955123357_1_alg».proof.Proof.Gen.ReferenceIdeal.Read
import Idealize.ShloMosaic.Lib.ValueIdx
import Idealize.ShloMosaic.Lib.Pipeline.Value
import Idealize.ShloMosaic.PureOps.Ideal.Laws

noncomputable section

namespace Cert.Bridge

open Idealize.ShloMosaic Idealize.ShloMosaic.TcCoe

/-! ## Coordinates -/

/-- Entry (row of `j`, `k`) of a 10000 × 64 block: the left factor of the contraction at output entry `j`. -/
abbrev lrow64 {n : Nat} (j : (⟨2, ![10000, n]⟩ : Shape).Idx) (k : Fin 64) : Cert.KernelIdeal.S10000x64.Idx := fun a => match a with
  | ⟨0, _⟩ => ⟨(j 0).val, (j 0).isLt⟩
  | ⟨1, _⟩ => ⟨k.val, k.isLt⟩
/-- Entry (`k`, column of `j`) of the 64 × 64 weights. -/
abbrev wcol64 (j : Cert.KernelIdeal.S10000x64.Idx) (k : Fin 64) : Cert.KernelIdeal.S64x64.Idx := fun a => match a with
  | ⟨0, _⟩ => ⟨k.val, k.isLt⟩
  | ⟨1, _⟩ => ⟨(j 1).val, (j 1).isLt⟩
/-- Entry (`k`, column of `j`) of the 64 × 32 weights. -/
abbrev wcol32 (j : Cert.KernelIdeal.S10000x32.Idx) (k : Fin 64) : Cert.KernelIdeal.S64x32.Idx := fun a => match a with
  | ⟨0, _⟩ => ⟨k.val, k.isLt⟩
  | ⟨1, _⟩ => ⟨(j 1).val, (j 1).isLt⟩
/-- The bias of the column of `j`, in the one-row matrix the kernel is given. -/
abbrev brow64 {n : Nat} (j : (⟨2, ![n, 64]⟩ : Shape).Idx) : Cert.KernelIdeal.S1x64.Idx := fun a => match a with
  | ⟨0, _⟩ => ⟨0, Nat.one_pos⟩
  | ⟨1, _⟩ => ⟨(j 1).val, (j 1).isLt⟩
abbrev brow32 {n : Nat} (j : (⟨2, ![n, 32]⟩ : Shape).Idx) : Cert.KernelIdeal.S1x32.Idx := fun a => match a with
  | ⟨0, _⟩ => ⟨0, Nat.one_pos⟩
  | ⟨1, _⟩ => ⟨(j 1).val, (j 1).isLt⟩

/-! ## The dense product, first layer: 64 → 64 -/

section Dense64
open Cert.KernelIdeal

theorem dense64_lhs0 (j : S10000x64.Idx) (q : dot_S10000x64_S64x64_S10000x64_1_0_0_1_n_n.contr.Idx) :
    (dot_S10000x64_S64x64_S10000x64_1_0_0_1_n_n.lhsIdx j q 0).val = (j 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem dense64_rhs1 (j : S10000x64.Idx) (q : dot_S10000x64_S64x64_S10000x64_1_0_0_1_n_n.contr.Idx) :
    (dot_S10000x64_S64x64_S10000x64_1_0_0_1_n_n.rhsIdx j q 1).val = (j 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- An entry of a block of the first dense product is the contraction of the block's row with the weights' column. -/
theorem dense64_apply (xb : Vec Ideal S10000x64 .f32) (wb : Vec Ideal S64x64 .f32) (j : S10000x64.Idx) :
    Gen.k0_pay1 (F := Ideal) xb wb j = ∑ k : Fin 64, xb (lrow64 j k) * wb (wcol64 j k) := by
  unfold Gen.k0_pay1
  refine (Ideal.matmul_constant_zero_apply dot_S10000x64_S64x64_S10000x64_1_0_0_1_n_n none _ _ j).trans ?_
  rw [← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx j ((ValueIdx.contrEquiv1 dot_S10000x64_S64x64_S10000x64_1_0_0_1_n_n 64 rfl rfl).symm k) = lrow64 j k := funext fun a => Fin.ext (by
    match a with
    | ⟨0, _⟩ => exact dense64_lhs0 _ _
    | ⟨1, _⟩ => exact (dot_S10000x64_S64x64_S10000x64_1_0_0_1_n_n.lhsIdx_val_of_single rfl j _).trans hk)
  have er : dot_S10000x64_S64x64_S10000x64_1_0_0_1_n_n.rhsIdx j ((ValueIdx.contrEquiv1 dot_S10000x64_S64x64_S10000x64_1_0_0_1_n_n 64 rfl rfl).symm k) = wcol64 j k := funext fun a => Fin.ext (by
    match a with
    | ⟨0, _⟩ => exact (dot_S10000x64_S64x64_S10000x64_1_0_0_1_n_n.rhsIdx_val_of_single rfl j _).trans hk
    | ⟨1, _⟩ => exact dense64_rhs1 _ _)
  show xb _ * wb _ = _
  rw [el, er]

end Dense64

/-! ## The dense product, second layer: 64 → 32 -/

section Dense32
open Cert.KernelIdeal Cert.KernelIdeal.Facts₀ Cert.KernelIdeal.Facts

theorem dense32_lhs0 (j : S10000x32.Idx) (q : dot_S10000x64_S64x32_S10000x32_1_0_0_1_n_n.contr.Idx) :
    (dot_S10000x64_S64x32_S10000x32_1_0_0_1_n_n.lhsIdx j q 0).val = (j 0).val := by
  unfold DotDims.lhsIdx
  rw [dif_neg (show ¬(0 : Fin S10000x64.rank) ∈ dot_S10000x64_S64x32_S10000x32_1_0_0_1_n_n.lhsBatch by decide), dif_pos (show (0 : Fin S10000x64.rank) ∈ dot_S10000x64_S64x32_S10000x32_1_0_0_1_n_n.lhsNonContracting by decide)]
  rfl
theorem dense32_rhs1 (j : S10000x32.Idx) (q : dot_S10000x64_S64x32_S10000x32_1_0_0_1_n_n.contr.Idx) :
    (dot_S10000x64_S64x32_S10000x32_1_0_0_1_n_n.rhsIdx j q 1).val = (j 1).val := by
  unfold DotDims.rhsIdx
  rw [dif_neg (show ¬(1 : Fin S64x32.rank) ∈ dot_S10000x64_S64x32_S10000x32_1_0_0_1_n_n.rhsBatch by decide), dif_pos (show (1 : Fin S64x32.rank) ∈ dot_S10000x64_S64x32_S10000x32_1_0_0_1_n_n.rhsNonContracting by decide)]
  rfl

/-- An entry of a block of the second dense product is the contraction of the block's row with the weights' column. -/
theorem dense32_apply (xb : Vec Ideal S10000x64 .f32) (wb : Vec Ideal S64x32 .f32) (j : S10000x32.Idx) :
    Gen.k2_pay1 (F := Ideal) xb wb j = ∑ k : Fin 64, xb (lrow64 j k) * wb (wcol32 j k) := by
  unfold Gen.k2_pay1
  refine (Ideal.matmul_constant_zero_apply dot_S10000x64_S64x32_S10000x32_1_0_0_1_n_n none _ _ j).trans ?_
  rw [← Equiv.sum_comp (ValueIdx.contrEquiv1 dot_S10000x64_S64x32_S10000x32_1_0_0_1_n_n 64 rfl rfl).symm]
  refine Finset.sum_congr rfl fun k _ => ?_
  have hk := ValueIdx.contrEquiv1_symm_val dot_S10000x64_S64x32_S10000x32_1_0_0_1_n_n 64 rfl rfl k
  have el : dot_S10000x64_S64x32_S10000x32_1_0_0_1_n_n.lhsIdx j ((ValueIdx.contrEquiv1 dot_S10000x64_S64x32_S10000x32_1_0_0_1_n_n 64 rfl rfl).symm k) = lrow64 j k := funext fun a => Fin.ext (by
    match a with
    | ⟨0, _⟩ => exact dense32_lhs0 _ _
    | ⟨1, _⟩ => exact (dot_S10000x64_S64x32_S10000x32_1_0_0_1_n_n.lhsIdx_val_of_single rfl j _).trans hk)
  have er : dot_S10000x64_S64x32_S10000x32_1_0_0_1_n_n.rhsIdx j ((ValueIdx.contrEquiv1 dot_S10000x64_S64x32_S10000x32_1_0_0_1_n_n 64 rfl rfl).symm k) = wcol32 j k := funext fun a => Fin.ext (by
    match a with
    | ⟨0, _⟩ => exact (dot_S10000x64_S64x32_S10000x32_1_0_0_1_n_n.rhsIdx_val_of_single rfl j _).trans hk
    | ⟨1, _⟩ => exact dense32_rhs1 _ _)
  show (shapeCast S10000x64 xb shapeCasts_S10000x64_S10000x64) _ * wb _ = _
  rw [shapeCast_self, el, er]

end Dense32

/-! ## The bias, and the rectifier -/

section Bias
open Cert.KernelIdeal Cert.KernelIdeal.Facts₀ Cert.KernelIdeal.Facts

/-- First layer: an entry of a bias block is the maximum of zero and the aggregated entry plus its column's bias. -/
theorem biasRelu64_apply (ab : Vec Ideal S10000x64 .f32) (bb : Vec Ideal S1x64 .f32) (j : S10000x64.Idx) :
    Gen.k1_pay1 (F := Ideal) ab bb j
      = FloatOps.maximumf (FloatOps.addf (ab j) (bb (brow64 j))) (FloatOps.ofBits .f32 0x00000000#32) := by
  unfold Gen.k1_pay1
  show FloatOps.maximumf (FloatOps.addf (shapeCast (α := Ideal .f32) S10000x64 ab shapeCasts_S10000x64_S10000x64 j)
      (broadcastTo S10000x64 (shapeCast (α := Ideal .f32) S1x64 (shapeCast (α := Ideal .f32) S1x64 bb shapeCasts_S1x64_S1x64) shapeCasts_S1x64_S1x64) broadcasts_S1x64_S10000x64 j)) _ = _
  rw [shapeCast_self, shapeCast_self, shapeCast_self,
    broadcastTo_apply bb broadcasts_S1x64_S10000x64 j (brow64 j) (fun a => match a with
      | ⟨0, _⟩ => by show 0 = if (1 : Nat) = 1 then 0 else _; rw [if_pos rfl]
      | ⟨1, _⟩ => by show (j 1).val = if (64 : Nat) = 1 then 0 else (j 1).val; rw [if_neg (by decide)])]
  rfl

/-- Second layer: an entry of a bias block is the aggregated entry plus its column's bias. -/
theorem bias32_apply (ab : Vec Ideal S10000x32 .f32) (bb : Vec Ideal S1x32 .f32) (j : S10000x32.Idx) :
    Gen.k3_pay1 (F := Ideal) ab bb j = FloatOps.addf (ab j) (bb (brow32 j)) := by
  unfold Gen.k3_pay1
  show FloatOps.addf (shapeCast (α := Ideal .f32) S10000x32 ab shapeCasts_S10000x32_S10000x32 j)
      (broadcastTo S10000x32 (shapeCast (α := Ideal .f32) S1x32 (shapeCast (α := Ideal .f32) S1x32 bb shapeCasts_S1x32_S1x32) shapeCasts_S1x32_S1x32) broadcasts_S1x32_S10000x32 j) = _
  rw [shapeCast_self, shapeCast_self, shapeCast_self,
    broadcastTo_apply bb broadcasts_S1x32_S10000x32 j (brow32 j) (fun a => match a with
      | ⟨0, _⟩ => by show 0 = if (1 : Nat) = 1 then 0 else _; rw [if_pos rfl]
      | ⟨1, _⟩ => by show (j 1).val = if (32 : Nat) = 1 then 0 else (j 1).val; rw [if_neg (by decide)])]

end Bias

end Cert.Bridge

end
-- ==== Proof.Blocks0.lean ====
/-
  The first dense product as ONE array.

  The region computes x · W in ten blocks of 10000 rows: block t reads rows 10000·t … 10000·t + 9999 of x and
  the whole of W, and writes the same rows of the result. An entry of block t's result is the contraction of its
  row of x with a column of W, which is that entry of the whole product; and every row lies in exactly the block
  numbered by its quotient by 10000. So after the region the result array IS the product of the arrays the
  region found.
-/
import proofs.«137254_j7206955123357_1_alg».proof.Proof.Gen.KernelIdeal.Frame
import proofs.«137254_j7206955123357_1_alg».proof.Proof.Gen.ReferenceIdeal.Read
import proofs.«137254_j7206955123357_1_alg».proof.Proof.Bodies
import Idealize.ShloMosaic.Lib.Pipeline.Value

set_option maxRecDepth 16384

noncomputable section

namespace Cert.KernelIdeal.Blocks0

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: x and the result move together along the rows; W stays. -/
theorem maps : ∀ t : Fin cfg0.N, win0_0.index t (0 : Fin 2) = win0_2.index t (0 : Fin 2)
    ∧ win0_0.index t (1 : Fin 2) = 0 ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every row block is some point's. -/
theorem onto : ∀ q : Fin 10, ∃ t : Fin cfg0.N, win0_2.index t = ![q.val, 0] :=
  (by decide +kernel : ∀ q : Fin 10, ∃ t : Fin grid0.N, win0_2.index t = ![q.val, 0])

/-- What point `t` writes back is block `t` of the product of the arrays the region found. -/
theorem flushed (c : Dev nD) (t : Fin cfg0.N) :
    (dat0 V c).flushed 2 t = ((cfg0.win 2).blk t).view.read (Elt Ideal)
      (Cert.ReferenceIdeal.Read.val_main_v4 (F := Ideal) (V c main_arg0) (V c main_arg3)) := by
  show (cfg0.win 2).cut (grid0.coords t) ((dat0 V c).after 2 t) = _
  rw [after0_2]
  unfold out0_2
  rw [View.canon_unit_zero origin]
  simp only [View.ld_unit_zero (S := S10000x64) origin, View.ld_unit_zero (S := S64x64) origin]
  obtain ⟨e0, e1, e2, e3, e4, e5⟩ := maps t
  funext j
  show k0_pay1 (F := Ideal) (iblk0 V c 0 t) (iblk0 V c 1 t) j
      = Cert.ReferenceIdeal.Read.val_main_v4 (F := Ideal) (V c main_arg0) (V c main_arg3) (((cfg0.win 2).blk t).view.emb j)
  refine (Cert.Bridge.dense64_apply (iblk0 V c 0 t) (iblk0 V c 1 t) j).trans ?_
  rw [Cert.ReferenceIdeal.Read.val_main_v4_apply]
  refine Finset.sum_congr rfl fun k _ => ?_
  have hl : iblk0 V c 0 t (Cert.Bridge.lrow64 j k)
      = V c main_arg0 (Cert.ReferenceIdeal.Read.lidx_main_v4 (((cfg0.win 2).blk t).view.emb j) k) := by
    show V c main_arg0 (((cfg0.win 0).blk t).view.emb (Cert.Bridge.lrow64 j k)) = _
    refine congrArg (V c main_arg0) (funext fun a => Fin.ext ?_)
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * k.val = k.val; omega
  have hr : iblk0 V c 1 t (Cert.Bridge.wcol64 j k)
      = V c main_arg3 (Cert.ReferenceIdeal.Read.ridx_main_v4 (((cfg0.win 2).blk t).view.emb j) k) := by
    show V c main_arg3 (((cfg0.win 1).blk t).view.emb (Cert.Bridge.wcol64 j k)) = _
    refine congrArg (V c main_arg3) (funext fun a => Fin.ext ?_)
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  rw [hl, hr]

/-- An entry is in point `t`'s block iff each coordinate is in the block's range on its axis. -/
theorem mem_blk (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v4).slice (win0_2.rect t)).set ↔ _
  rw [View.set_slice_whole, Rect.mem_set_unit]
  exact Iff.rfl

/-- Every entry is in the block numbered by its row's quotient by 10000. -/
theorem cover (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- After the region the result array is the product of the arrays the region found. -/
theorem final (c : Dev nD) : (dat0 V c).arrAt 2 cfg0.N
    = Cert.ReferenceIdeal.Read.val_main_v4 (F := Ideal) (V c main_arg0) (V c main_arg3) :=
  (dat0 V c).arrAt_eq_of_cover 2 _ (fun t _ => flushed V c t) cover

end Cert.KernelIdeal.Blocks0

end
-- ==== Proof.ChainA.lean ====
/-
  The kernel's buffers at the boundaries up to the first bias region, in the reference's own vocabulary.

  The host operations between the regions are, operation for operation, the reference's: the two rows of the edge
  list, and the sparse product A · h (self loops appended, the degree by a scatter-add, its inverse square root
  where positive, the gathered rows scaled and scatter-added). The first region's array is the dense product x · W.
  So each buffer a later step reads holds the reference's value of the same name.
-/
import proofs.«137254_j7206955123357_1_alg».proof.Proof.Blocks0
import Idealize.ShloMosaic.Lib.StableHlo.Run

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read

/-- Reading a stretch's fold: an operation's result at its own buffer is its function's value of its operands'
    contents, and at any other buffer what was there before it. -/
local macro "host_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The first sparse product, for any float values and from any contents

  This holds whatever the float values and their operations are — nothing about the scatter-add, the gather or the
  inverse square root is used: the kernel's three stretches of host operations apply the reference's operations one
  for one to the same four inputs (the two rows of the edge list, the edge weights, the dense product). -/

section FirstSparse
variable {F : FTy → Type} [FloatOps F] (W : Valuation τ sig (Elt F))
  (x0 : (⟨Cert.ReferenceIdeal.S100000x64, .f32⟩ : BufTy).Contents (Elt F)) (x1 : (⟨Cert.ReferenceIdeal.S2x1600000, .i32⟩ : BufTy).Contents (Elt F))
  (x2 : (⟨Cert.ReferenceIdeal.S1600000, .f32⟩ : BufTy).Contents (Elt F)) (x3 : (⟨Cert.ReferenceIdeal.S64x64, .f32⟩ : BufTy).Contents (Elt F))
  (h1 : W (Proc.devRef .tc main_v1) = val_main_v1 (F := F) x1) (h3 : W (Proc.devRef .tc main_v3) = val_main_v3 (F := F) x1)
  (h2 : W (Proc.devRef .tc main_arg2) = x2) (h4 : W (Proc.devRef .tc main_v4) = val_main_v4 (F := F) x0 x3)
include h1 h3 h2 h4

set_option maxHeartbeats 40000000 in
theorem sparse_first : StableHlo.after hostOps1_2 (StableHlo.after hostOps1_1 (StableHlo.after hostOps1 W)) (Proc.devRef .tc main_v45)
    = val_main_v45 (F := F) x0 x1 x2 x3 := by
  after_results_simp
  host_rest
  repeat (first | rw [h1] | rw [h3] | rw [h2] | rw [h4])
  rfl

end FirstSparse

variable (m : (ℓ : Loc nD τ sig) → Buf (Elt Ideal) ℓ) (ρ : Dev nD → PrngReg) (c : Dev nD)

/-! ## After the edge list is split (the first region's entry) -/

theorem W1_v1 : W1 m ρ c (Proc.devRef .tc main_v1) = val_main_v1 (F := Ideal) (m ((c : Thread nD τ).loc main_arg1)) := by
  show StableHlo.after hostOps0 (W0 m ρ c) (Proc.devRef .tc main_v1) = _
  after_results <;> rfl
theorem W1_v3 : W1 m ρ c (Proc.devRef .tc main_v3) = val_main_v3 (F := Ideal) (m ((c : Thread nD τ).loc main_arg1)) := by
  show StableHlo.after hostOps0 (W0 m ρ c) (Proc.devRef .tc main_v3) = _
  after_results <;> rfl
theorem W1_arg0 : W1 m ρ c (Proc.devRef .tc main_arg0) = m ((c : Thread nD τ).loc main_arg0) := by
  show StableHlo.after hostOps0 (W0 m ρ c) (Proc.devRef .tc main_arg0) = _
  after_results <;> rfl
theorem W1_arg2 : W1 m ρ c (Proc.devRef .tc main_arg2) = m ((c : Thread nD τ).loc main_arg2) := by
  show StableHlo.after hostOps0 (W0 m ρ c) (Proc.devRef .tc main_arg2) = _
  after_results <;> rfl
theorem W1_arg3 : W1 m ρ c (Proc.devRef .tc main_arg3) = m ((c : Thread nD τ).loc main_arg3) := by
  show StableHlo.after hostOps0 (W0 m ρ c) (Proc.devRef .tc main_arg3) = _
  after_results <;> rfl
theorem W1_arg4 : W1 m ρ c (Proc.devRef .tc main_arg4) = m ((c : Thread nD τ).loc main_arg4) := by
  show StableHlo.after hostOps0 (W0 m ρ c) (Proc.devRef .tc main_arg4) = _
  after_results <;> rfl
theorem W1_arg5 : W1 m ρ c (Proc.devRef .tc main_arg5) = m ((c : Thread nD τ).loc main_arg5) := by
  show StableHlo.after hostOps0 (W0 m ρ c) (Proc.devRef .tc main_arg5) = _
  after_results <;> rfl
theorem W1_arg6 : W1 m ρ c (Proc.devRef .tc main_arg6) = m ((c : Thread nD τ).loc main_arg6) := by
  show StableHlo.after hostOps0 (W0 m ρ c) (Proc.devRef .tc main_arg6) = _
  after_results <;> rfl

/-! ## After the first region: the dense product x · W1 -/

theorem W2_v4 : W2 m ρ c (Proc.devRef .tc main_v4) = val_main_v4 (F := Ideal) (m ((c : Thread nD τ).loc main_arg0)) (m ((c : Thread nD τ).loc main_arg3)) := by
  refine (W2_arr m ρ c 2).trans ((Cert.KernelIdeal.Blocks0.final (V1 m ρ) c).trans ?_)
  show val_main_v4 (F := Ideal) (W1 m ρ c (Proc.devRef .tc main_arg0)) (W1 m ρ c (Proc.devRef .tc main_arg3)) = _
  rw [W1_arg0, W1_arg3]
theorem W2_v1 : W2 m ρ c (Proc.devRef .tc main_v1) = val_main_v1 (F := Ideal) (m ((c : Thread nD τ).loc main_arg1)) :=
  (W2_of_ne m ρ c main_v1 (by decide)).trans (W1_v1 m ρ c)
theorem W2_v3 : W2 m ρ c (Proc.devRef .tc main_v3) = val_main_v3 (F := Ideal) (m ((c : Thread nD τ).loc main_arg1)) :=
  (W2_of_ne m ρ c main_v3 (by decide)).trans (W1_v3 m ρ c)
theorem W2_arg2 : W2 m ρ c (Proc.devRef .tc main_arg2) = m ((c : Thread nD τ).loc main_arg2) :=
  (W2_of_ne m ρ c main_arg2 (by decide)).trans (W1_arg2 m ρ c)
theorem W2_arg4 : W2 m ρ c (Proc.devRef .tc main_arg4) = m ((c : Thread nD τ).loc main_arg4) :=
  (W2_of_ne m ρ c main_arg4 (by decide)).trans (W1_arg4 m ρ c)
theorem W2_arg5 : W2 m ρ c (Proc.devRef .tc main_arg5) = m ((c : Thread nD τ).loc main_arg5) :=
  (W2_of_ne m ρ c main_arg5 (by decide)).trans (W1_arg5 m ρ c)
theorem W2_arg6 : W2 m ρ c (Proc.devRef .tc main_arg6) = m ((c : Thread nD τ).loc main_arg6) :=
  (W2_of_ne m ρ c main_arg6 (by decide)).trans (W1_arg6 m ρ c)

/-! ## After the first sparse product (the second region's entry) -/

/-- The aggregated features: the reference's scatter-add of the scaled gathered rows of the dense product. -/
theorem W5_v45 : W5 m ρ c (Proc.devRef .tc main_v45)
    = val_main_v45 (F := Ideal) (m ((c : Thread nD τ).loc main_arg0)) (m ((c : Thread nD τ).loc main_arg1)) (m ((c : Thread nD τ).loc main_arg2)) (m ((c : Thread nD τ).loc main_arg3)) :=
  sparse_first (W2 m ρ c) _ _ _ _ (W2_v1 m ρ c) (W2_v3 m ρ c) (W2_arg2 m ρ c) (W2_v4 m ρ c)
/-- The bias as a one-row matrix. -/
theorem W5_v46 : W5 m ρ c (Proc.devRef .tc main_v46) = shapeCast S1x64 (m ((c : Thread nD τ).loc main_arg4)) shapeCasts_S64_S1x64 := by
  show StableHlo.after hostOps1_2 (StableHlo.after hostOps1_1 (StableHlo.after hostOps1 (W2 m ρ c))) (Proc.devRef .tc main_v46) = _
  after_results_simp
  rw [W2_arg4 m ρ c]
  rfl
theorem W5_v1 : W5 m ρ c (Proc.devRef .tc main_v1) = val_main_v1 (F := Ideal) (m ((c : Thread nD τ).loc main_arg1)) := by
  show StableHlo.after hostOps1_2 (StableHlo.after hostOps1_1 (StableHlo.after hostOps1 (W2 m ρ c))) (Proc.devRef .tc main_v1) = _
  after_results_simp
  exact W2_v1 m ρ c
theorem W5_v3 : W5 m ρ c (Proc.devRef .tc main_v3) = val_main_v3 (F := Ideal) (m ((c : Thread nD τ).loc main_arg1)) := by
  show StableHlo.after hostOps1_2 (StableHlo.after hostOps1_1 (StableHlo.after hostOps1 (W2 m ρ c))) (Proc.devRef .tc main_v3) = _
  after_results_simp
  exact W2_v3 m ρ c
theorem W5_arg2 : W5 m ρ c (Proc.devRef .tc main_arg2) = m ((c : Thread nD τ).loc main_arg2) := by
  show StableHlo.after hostOps1_2 (StableHlo.after hostOps1_1 (StableHlo.after hostOps1 (W2 m ρ c))) (Proc.devRef .tc main_arg2) = _
  after_results_simp
  exact W2_arg2 m ρ c
theorem W5_arg5 : W5 m ρ c (Proc.devRef .tc main_arg5) = m ((c : Thread nD τ).loc main_arg5) := by
  show StableHlo.after hostOps1_2 (StableHlo.after hostOps1_1 (StableHlo.after hostOps1 (W2 m ρ c))) (Proc.devRef .tc main_arg5) = _
  after_results_simp
  exact W2_arg5 m ρ c
theorem W5_arg6 : W5 m ρ c (Proc.devRef .tc main_arg6) = m ((c : Thread nD τ).loc main_arg6) := by
  show StableHlo.after hostOps1_2 (StableHlo.after hostOps1_1 (StableHlo.after hostOps1 (W2 m ρ c))) (Proc.devRef .tc main_arg6) = _
  after_results_simp
  exact W2_arg6 m ρ c

end Cert.KernelIdeal.Chain

end
-- ==== Proof.Blocks1.lean ====
/-
  The first layer's bias and rectifier as ONE array.

  The region adds the bias to the aggregated features and takes the maximum with zero, in ten blocks of 10000
  rows: block t reads rows 10000·t … of the aggregate and the whole one-row bias, and writes the same rows of the
  result. An entry of the result depends only on the aggregate's entry and its column's bias, so block by block
  the region computes the entry-by-entry function of the arrays it found, and the blocks cover every row.
-/
import proofs.«137254_j7206955123357_1_alg».proof.Proof.Gen.KernelIdeal.Frame
import proofs.«137254_j7206955123357_1_alg».proof.Proof.Bodies
import Idealize.ShloMosaic.Lib.Pipeline.Value

set_option maxRecDepth 16384

noncomputable section

namespace Cert.KernelIdeal.Blocks1

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The rectified, biased aggregate, entry by entry: max(0, agg + bias of the column). -/
def layer (agg : S100000x64.Idx → Ideal .f32) (b : S1x64.Idx → Ideal .f32) : S100000x64.Idx → Ideal .f32 :=
  fun i => FloatOps.maximumf (F := Ideal) (FloatOps.addf (F := Ideal) (agg i) (b (Cert.Bridge.brow64 i))) (FloatOps.ofBits (F := Ideal) .f32 0x00000000#32)

/-- The block index maps over the grid: the aggregate and the result move together along the rows; the bias stays. -/
theorem maps : ∀ t : Fin cfg1.N, win1_0.index t (0 : Fin 2) = win1_2.index t (0 : Fin 2)
    ∧ win1_0.index t (1 : Fin 2) = 0 ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every row block is some point's. -/
theorem onto : ∀ q : Fin 10, ∃ t : Fin cfg1.N, win1_2.index t = ![q.val, 0] :=
  (by decide +kernel : ∀ q : Fin 10, ∃ t : Fin grid1.N, win1_2.index t = ![q.val, 0])

/-- What point `t` writes back is block `t` of the layer function of the arrays the region found. -/
theorem flushed (c : Dev nD) (t : Fin cfg1.N) :
    (dat1 V c).flushed 2 t = ((cfg1.win 2).blk t).view.read (Elt Ideal) (layer (V c main_v45) (V c main_v46)) := by
  show (cfg1.win 2).cut (grid1.coords t) ((dat1 V c).after 2 t) = _
  rw [after1_2]
  unfold out1_2
  rw [View.canon_unit_zero origin]
  simp only [View.ld_unit_zero (S := S10000x64) origin, View.ld_unit_zero (S := S1x64) origin]
  obtain ⟨e0, e1, e2, e3, e4, e5⟩ := maps t
  funext j
  show k1_pay1 (F := Ideal) (iblk1 V c 0 t) (iblk1 V c 1 t) j = layer (V c main_v45) (V c main_v46) (((cfg1.win 2).blk t).view.emb j)
  refine (Cert.Bridge.biasRelu64_apply (iblk1 V c 0 t) (iblk1 V c 1 t) j).trans ?_
  have h0 : iblk1 V c 0 t j = V c main_v45 (((cfg1.win 2).blk t).view.emb j) := by
    show V c main_v45 (((cfg1.win 0).blk t).view.emb j) = _
    refine congrArg (V c main_v45) (funext fun a => Fin.ext ?_)
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : iblk1 V c 1 t (Cert.Bridge.brow64 j) = V c main_v46 (Cert.Bridge.brow64 (((cfg1.win 2).blk t).view.emb j)) := by
    show V c main_v46 (((cfg1.win 1).blk t).view.emb (Cert.Bridge.brow64 j)) = _
    refine congrArg (V c main_v46) (funext fun a => Fin.ext ?_)
    match a with
    | ⟨0, _⟩ => show win1_1.index t (0 : Fin 2) * 1 + 1 * 0 = 0; omega
    | ⟨1, _⟩ => show win1_1.index t (1 : Fin 2) * 64 + 1 * (j 1).val = win1_2.index t (1 : Fin 2) * 64 + 1 * (j 1).val; omega
  rw [h0, h1]
  rfl

/-- An entry is in point `t`'s block iff each coordinate is in the block's range on its axis. -/
theorem mem_blk (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- Every entry is in the block numbered by its row's quotient by 10000. -/
theorem cover (i : S100000x64.Idx) : ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := onto ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- After the region the result array is the layer function of the arrays the region found. -/
theorem final (c : Dev nD) : (dat1 V c).arrAt 2 cfg1.N = layer (V c main_v45) (V c main_v46) :=
  (dat1 V c).arrAt_eq_of_cover 2 _ (fun t _ => flushed V c t) cover

end Cert.KernelIdeal.Blocks1

end
-- ==== Proof.Blocks2.lean ====
/-
  The second dense product as ONE array.

  The region computes h · W in ten blocks of 10000 rows, h the first layer's output (64 features) and W the 64 × 32
  weights: block t reads rows 10000·t … of h and the whole of W, and writes the same rows of the result. An entry
  of block t's result is the contraction of its row of h with a column of W — that entry of the whole product —
  and every row lies in the block numbered by its quotient by 10000.
-/
import proofs.«137254_j7206955123357_1_alg».proof.Proof.Gen.KernelIdeal.Frame
import proofs.«137254_j7206955123357_1_alg».proof.Proof.Gen.ReferenceIdeal.Read
import proofs.«137254_j7206955123357_1_alg».proof.Proof.Bodies
import Idealize.ShloMosaic.Lib.Pipeline.Value

set_option maxRecDepth 16384

noncomputable section

namespace Cert.KernelIdeal.Blocks2

open Cert.KernelIdeal Cert.KernelIdeal.Gen
open Idealize.ShloMosaic Idealize.ShloMosaic.TcCoe Idealize.SL.Sem
open Idealize.ShloMosaic.Pipeline (Dat Cfg Window)

/-- The whole product h · W: the host's contraction of axis 1 of h with axis 0 of W. -/
def product (h : Cert.ReferenceIdeal.S100000x64.Idx → Ideal .f32) (w : Cert.ReferenceIdeal.S64x32.Idx → Ideal .f32) :
    Cert.ReferenceIdeal.S100000x32.Idx → Ideal .f32 :=
  Host.dotGeneral (F := Ideal) Cert.ReferenceIdeal.dot_S100000x64_S64x32_S100000x32_1_0_0_1_n_n none h w

/-- The product at an entry: the sum over the 64 features of the row's entry times the column's. -/
theorem product_apply (h : Cert.ReferenceIdeal.S100000x64.Idx → Ideal .f32)
    (w : Cert.ReferenceIdeal.S64x32.Idx → Ideal .f32) (i : Cert.ReferenceIdeal.S100000x32.Idx) :
    product h w i
      = ∑ k : Fin 64, h (Cert.ReferenceIdeal.Read.lidx_main_v50 i k) * w (Cert.ReferenceIdeal.Read.ridx_main_v50 i k) := by
  unfold product
  simp only [Host.dotGeneral]
  rw [Ideal.dotGeneral_apply, ← Equiv.sum_comp (ValueIdx.contrEquiv1 Cert.ReferenceIdeal.dot_S100000x64_S64x32_S100000x32_1_0_0_1_n_n 64 rfl rfl).symm]
  refine Finset.sum_congr rfl fun k _ => ?_
  have hk := ValueIdx.contrEquiv1_symm_val Cert.ReferenceIdeal.dot_S100000x64_S64x32_S100000x32_1_0_0_1_n_n 64 rfl rfl k
  have el : Cert.ReferenceIdeal.dot_S100000x64_S64x32_S100000x32_1_0_0_1_n_n.lhsIdx i ((ValueIdx.contrEquiv1 Cert.ReferenceIdeal.dot_S100000x64_S64x32_S100000x32_1_0_0_1_n_n 64 rfl rfl).symm k) = Cert.ReferenceIdeal.Read.lidx_main_v50 i k := funext fun a => Fin.ext (by
    match a with
    | ⟨0, _⟩ => exact Cert.ReferenceIdeal.Read.lhs_main_v50_0 _ _
    | ⟨1, _⟩ => exact (Cert.ReferenceIdeal.Read.lhs_main_v50_1 _ _).trans hk)
  have er : Cert.ReferenceIdeal.dot_S100000x64_S64x32_S100000x32_1_0_0_1_n_n.rhsIdx i ((ValueIdx.contrEquiv1 Cert.ReferenceIdeal.dot_S100000x64_S64x32_S100000x32_1_0_0_1_n_n 64 rfl rfl).symm k) = Cert.ReferenceIdeal.Read.ridx_main_v50 i k := funext fun a => Fin.ext (by
    match a with
    | ⟨0, _⟩ => exact (Cert.ReferenceIdeal.Read.rhs_main_v50_0 _ _).trans hk
    | ⟨1, _⟩ => exact Cert.ReferenceIdeal.Read.rhs_main_v50_1 _ _)
  rw [el, er]

variable (V : (c : Dev nD) → (b : Ref sig .tc) → Buf (Elt Ideal) ((c : Thread nD τ).loc b))

theorem origin : (![0, 0] : Fin 2 → Nat) = fun _ => 0 := funext fun a => by fin_cases a <;> rfl

/-- The block index maps over the grid: h and the result move together along the rows; W stays. -/
theorem maps : ∀ t : Fin cfg2.N, win2_0.index t (0 : Fin 2) = win2_2.index t (0 : Fin 2)
    ∧ win2_0.index t (1 : Fin 2) = 0 ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every row block is some point's. -/
theorem onto : ∀ q : Fin 10, ∃ t : Fin cfg2.N, win2_2.index t = ![q.val, 0] :=
  (by decide +kernel : ∀ q : Fin 10, ∃ t : Fin grid2.N, win2_2.index t = ![q.val, 0])

/-- What point `t` writes back is block `t` of the product of the arrays the region found. -/
theorem flushed (c : Dev nD) (t : Fin cfg2.N) :
    (dat2 V c).flushed 2 t = ((cfg2.win 2).blk t).view.read (Elt Ideal)
      (product (V c main_v47) (V c main_arg5)) := by
  show (cfg2.win 2).cut (grid2.coords t) ((dat2 V c).after 2 t) = _
  rw [after2_2]
  unfold out2_2
  rw [View.canon_unit_zero origin]
  simp only [View.ld_unit_zero (S := S10000x64) origin, View.ld_unit_zero (S := S64x32) origin]
  obtain ⟨e0, e1, e2, e3, e4, e5⟩ := maps t
  funext j
  show k2_pay1 (F := Ideal) (iblk2 V c 0 t) (iblk2 V c 1 t) j
      = product (V c main_v47) (V c main_arg5) (((cfg2.win 2).blk t).view.emb j)
  refine (Cert.Bridge.dense32_apply (iblk2 V c 0 t) (iblk2 V c 1 t) j).trans ?_
  rw [product_apply]
  refine Finset.sum_congr rfl fun k _ => ?_
  have hl : iblk2 V c 0 t (Cert.Bridge.lrow64 j k)
      = V c main_v47 (Cert.ReferenceIdeal.Read.lidx_main_v50 (((cfg2.win 2).blk t).view.emb j) k) := by
    show V c main_v47 (((cfg2.win 0).blk t).view.emb (Cert.Bridge.lrow64 j k)) = _
    refine congrArg (V c main_v47) (funext fun a => Fin.ext ?_)
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * k.val = k.val; omega
  have hr : iblk2 V c 1 t (Cert.Bridge.wcol32 j k)
      = V c main_arg5 (Cert.ReferenceIdeal.Read.ridx_main_v50 (((cfg2.win 2).blk t).view.emb j) k) := by
    show V c main_arg5 (((cfg2.win 1).blk t).view.emb (Cert.Bridge.wcol32 j k)) = _
    refine congrArg (V c main_arg5) (funext fun a => Fin.ext ?_)
    match a with
    | ⟨0, _⟩ => show win2_1.index t (0 : Fin 2) * 64 + 1 * k.val = k.val; omega
    | ⟨1, _⟩ => show win2_1.index t (1 : Fin 2) * 32 + 1 * (j 1).val = win2_2.index t (1 : Fin 2) * 32 + 1 * (j 1).val; omega
  rw [hl, hr]

/-- An entry is in point `t`'s block iff each coordinate is in the block's range on its axis. -/
theorem mem_blk (t : Fin cfg2.N) (i : S100000x32.Idx) :
    i ∈ ((cfg2.win 2).blk t).view.set ↔ ∀ a : Fin 2, win2_2.index t a * S10000x32.size a ≤ (i a).val ∧ (i a).val < win2_2.index t a * S10000x32.size a + S10000x32.size a := by
  show i ∈ ((View.whole main_v48).slice (win2_2.rect t)).set ↔ _
  rw [View.set_slice_whole, Rect.mem_set_unit]
  exact Iff.rfl

/-- Every entry is in the block numbered by its row's quotient by 10000. -/
theorem cover (i : S100000x32.Idx) : ∃ t : Fin cfg2.N, (cfg2.win 2).flush t = true ∧ i ∈ ((cfg2.win 2).blk t).view.set := by
  have hi0 : (i 0).val < 100000 := (i 0).isLt
  have hi1 : (i 1).val < 32 := (i 1).isLt
  obtain ⟨t, ht⟩ := onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 32 ≤ (i 1).val ∧ (i 1).val < win2_2.index t (1 : Fin 2) * 32 + 32; omega

/-- After the region the result array is the product of the arrays the region found. -/
theorem final (c : Dev nD) : (dat2 V c).arrAt 2 cfg2.N
    = product (V c main_v47) (V c main_arg5) :=
  (dat2 V c).arrAt_eq_of_cover 2 _ (fun t _ => flushed V c t) cover

end Cert.KernelIdeal.Blocks2

end
-- ==== Proof.Blocks3.lean ====
/-
  The second layer's bias as ONE array.

  The region adds the bias to the aggregated features (32 of them, no rectifier) in ten blocks of 10000 rows: block
  t reads rows 10000·t … of the aggregate and the whole one-row bias, and writes the same rows of the result. An
  entry of the result depends only on the aggregate's entry and its column's bias, so block by block the region
  computes the entry-by-entry sum of the arrays it found, and the blocks cover every row.
-/
import proofs.«137254_j7206955123357_1_alg».proof.Proof.Gen.KernelIdeal.Frame
import proofs.«137254_j7206955123357_1_alg».proof.Proof.Bodies
import Idealize.ShloMosaic.Lib.Pipeline.Value

set_option maxRecDepth 16384

noncomputable section

namespace Cert.KernelIdeal.Blocks3

open Cert.KernelIdeal Cert.KernelIdeal.Gen
open Idealize.ShloMosaic Idealize.ShloMosaic.TcCoe Idealize.SL.Sem
open Idealize.ShloMosaic.Pipeline (Dat Cfg Window)

variable (V : (c : Dev nD) → (b : Ref sig .tc) → Buf (Elt Ideal) ((c : Thread nD τ).loc b))

theorem origin : (![0, 0] : Fin 2 → Nat) = fun _ => 0 := funext fun a => by fin_cases a <;> rfl

/-- The biased aggregate, entry by entry: agg + bias of the column. -/
def layer (agg : S100000x32.Idx → Ideal .f32) (b : S1x32.Idx → Ideal .f32) : S100000x32.Idx → Ideal .f32 :=
  fun i => FloatOps.addf (F := Ideal) (agg i) (b (Cert.Bridge.brow32 i))

/-- The block index maps over the grid: the aggregate and the result move together along the rows; the bias stays. -/
theorem maps : ∀ t : Fin cfg3.N, win3_0.index t (0 : Fin 2) = win3_2.index t (0 : Fin 2)
    ∧ win3_0.index t (1 : Fin 2) = 0 ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every row block is some point's. -/
theorem onto : ∀ q : Fin 10, ∃ t : Fin cfg3.N, win3_2.index t = ![q.val, 0] :=
  (by decide +kernel : ∀ q : Fin 10, ∃ t : Fin grid3.N, win3_2.index t = ![q.val, 0])

/-- What point `t` writes back is block `t` of the layer function of the arrays the region found. -/
theorem flushed (c : Dev nD) (t : Fin cfg3.N) :
    (dat3 V c).flushed 2 t = ((cfg3.win 2).blk t).view.read (Elt Ideal) (layer (V c main_v89) (V c main_v90)) := by
  show (cfg3.win 2).cut (grid3.coords t) ((dat3 V c).after 2 t) = _
  rw [after3_2]
  unfold out3_2
  rw [View.canon_unit_zero origin]
  simp only [View.ld_unit_zero (S := S10000x32) origin, View.ld_unit_zero (S := S1x32) origin]
  obtain ⟨e0, e1, e2, e3, e4, e5⟩ := maps t
  funext j
  show k3_pay1 (F := Ideal) (iblk3 V c 0 t) (iblk3 V c 1 t) j = layer (V c main_v89) (V c main_v90) (((cfg3.win 2).blk t).view.emb j)
  refine (Cert.Bridge.bias32_apply (iblk3 V c 0 t) (iblk3 V c 1 t) j).trans ?_
  have h0 : iblk3 V c 0 t j = V c main_v89 (((cfg3.win 2).blk t).view.emb j) := by
    show V c main_v89 (((cfg3.win 0).blk t).view.emb j) = _
    refine congrArg (V c main_v89) (funext fun a => Fin.ext ?_)
    match a with
    | ⟨0, _⟩ => show win3_0.index t (0 : Fin 2) * 10000 + 1 * (j 0).val = win3_2.index t (0 : Fin 2) * 10000 + 1 * (j 0).val; omega
    | ⟨1, _⟩ => show win3_0.index t (1 : Fin 2) * 32 + 1 * (j 1).val = win3_2.index t (1 : Fin 2) * 32 + 1 * (j 1).val; omega
  have h1 : iblk3 V c 1 t (Cert.Bridge.brow32 j) = V c main_v90 (Cert.Bridge.brow32 (((cfg3.win 2).blk t).view.emb j)) := by
    show V c main_v90 (((cfg3.win 1).blk t).view.emb (Cert.Bridge.brow32 j)) = _
    refine congrArg (V c main_v90) (funext fun a => Fin.ext ?_)
    match a with
    | ⟨0, _⟩ => show win3_1.index t (0 : Fin 2) * 1 + 1 * 0 = 0; omega
    | ⟨1, _⟩ => show win3_1.index t (1 : Fin 2) * 32 + 1 * (j 1).val = win3_2.index t (1 : Fin 2) * 32 + 1 * (j 1).val; omega
  rw [h0, h1]
  rfl

/-- An entry is in point `t`'s block iff each coordinate is in the block's range on its axis. -/
theorem mem_blk (t : Fin cfg3.N) (i : S100000x32.Idx) :
    i ∈ ((cfg3.win 2).blk t).view.set ↔ ∀ a : Fin 2, win3_2.index t a * S10000x32.size a ≤ (i a).val ∧ (i a).val < win3_2.index t a * S10000x32.size a + S10000x32.size a := by
  show i ∈ ((View.whole main_v91).slice (win3_2.rect t)).set ↔ _
  rw [View.set_slice_whole, Rect.mem_set_unit]
  exact Iff.rfl

/-- Every entry is in the block numbered by its row's quotient by 10000. -/
theorem cover (i : S100000x32.Idx) : ∃ t : Fin cfg3.N, (cfg3.win 2).flush t = true ∧ i ∈ ((cfg3.win 2).blk t).view.set := by
  have hi0 : (i 0).val < 100000 := (i 0).isLt
  have hi1 : (i 1).val < 32 := (i 1).isLt
  obtain ⟨t, ht⟩ := onto ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 32 ≤ (i 1).val ∧ (i 1).val < win3_2.index t (1 : Fin 2) * 32 + 32; omega

/-- After the region the result array is the layer function of the arrays the region found. -/
theorem final (c : Dev nD) : (dat3 V c).arrAt 2 cfg3.N = layer (V c main_v89) (V c main_v90) :=
  (dat3 V c).arrAt_eq_of_cover 2 _ (fun t _ => flushed V c t) cover

end Cert.KernelIdeal.Blocks3

end
-- ==== Proof.ChainB.lean ====
/-
  The kernel's buffers at the later boundaries, in the reference's own vocabulary, down to the result.

  The first layer's output is max(0, A·(x·W1) + b1): the region's entry-by-entry function of the aggregate and the
  one-row bias is the reference's broadcast sum and maximum with zero (a one-row matrix read at (0, j) is the bias
  vector at j). The third region is the dense product of that with W2, the second sparse product is again the
  reference's operations one for one, and the last region adds b2. So the result buffer holds the reference's result
  of the same arguments.
-/
import proofs.«137254_j7206955123357_1_alg».proof.Proof.ChainA
import proofs.«137254_j7206955123357_1_alg».proof.Proof.Blocks1
import proofs.«137254_j7206955123357_1_alg».proof.Proof.Blocks2
import proofs.«137254_j7206955123357_1_alg».proof.Proof.Blocks3

set_option maxRecDepth 16384

noncomputable section

namespace Cert.KernelIdeal.Chain

open Cert.KernelIdeal Cert.KernelIdeal.Gen
open Idealize.ShloMosaic Idealize.ShloMosaic.TcCoe Idealize.SL.Sem Idealize.ShloMosaic.StableHlo
open Cert.ReferenceIdeal.Read

/-! ## The two bias layers against the reference's broadcast sums -/

/-- max(0, agg + b) with b a one-row matrix made of the bias vector is the reference's maximum of the sum with the
    bias broadcast along the rows and the zero splat. -/
theorem layer1_eq (agg : S100000x64.Idx → Ideal .f32) (x4 : S64.Idx → Ideal .f32) :
    Cert.KernelIdeal.Blocks1.layer agg (shapeCast S1x64 x4 shapeCasts_S64_S1x64)
      = maximumf (addf agg (val_main_v47 (F := Ideal) x4)) (val_main_call1_v0 (F := Ideal)) := by
  funext i
  show FloatOps.maximumf (FloatOps.addf (agg i) (shapeCast S1x64 x4 shapeCasts_S64_S1x64 (Cert.Bridge.brow64 i))) (FloatOps.ofBits .f32 0x00000000#32)
     = FloatOps.maximumf (FloatOps.addf (agg i) (val_main_v47 (F := Ideal) x4 i)) (val_main_call1_v0 (F := Ideal) i)
  rw [val_main_v47_apply, val_main_v46_apply, val_main_call1_v0_apply, val_main_call1_cst_apply,
    shapeCast_apply x4 shapeCasts_S64_S1x64 (Cert.Bridge.brow64 i) (idx_main_v46 (idx_main_v47 i)) (by
      rewrite [Shape.rowMajor_val_one, Shape.rowMajor_val_two]; show (i 1).val = 0 * 64 + (i 1).val; omega)]

/-- agg + b with b a one-row matrix made of the bias vector is the reference's sum with the bias broadcast along the rows. -/
theorem layer2_eq (agg : S100000x32.Idx → Ideal .f32) (x6 : S32.Idx → Ideal .f32) :
    Cert.KernelIdeal.Blocks3.layer agg (shapeCast S1x32 x6 shapeCasts_S32_S1x32)
      = addf agg (val_main_v93 (F := Ideal) x6) := by
  funext i
  show FloatOps.addf (agg i) (shapeCast S1x32 x6 shapeCasts_S32_S1x32 (Cert.Bridge.brow32 i))
     = FloatOps.addf (agg i) (val_main_v93 (F := Ideal) x6 i)
  rw [val_main_v93_apply, val_main_v92_apply,
    shapeCast_apply x6 shapeCasts_S32_S1x32 (Cert.Bridge.brow32 i) (idx_main_v92 (idx_main_v93 i)) (by
      rewrite [Shape.rowMajor_val_one, Shape.rowMajor_val_two]; show (i 1).val = 0 * 32 + (i 1).val; omega)]

/-- Reading a stretch's fold: an operation's result at its own buffer is its function's value of its operands'
    contents, and at any other buffer what was there before it. -/
local macro "host_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## The second sparse product, for any float values and from any contents

  As for the first: the same operations one for one, applied to the two rows of the edge list, the edge weights and
  the second dense product. -/

section SecondSparse
variable {F : FTy → Type} [FloatOps F] (W : Valuation τ sig (Elt F))
  (x0 : (⟨Cert.ReferenceIdeal.S100000x64, .f32⟩ : BufTy).Contents (Elt F)) (x1 : (⟨Cert.ReferenceIdeal.S2x1600000, .i32⟩ : BufTy).Contents (Elt F))
  (x2 : (⟨Cert.ReferenceIdeal.S1600000, .f32⟩ : BufTy).Contents (Elt F)) (x3 : (⟨Cert.ReferenceIdeal.S64x64, .f32⟩ : BufTy).Contents (Elt F))
  (x4 : (⟨Cert.ReferenceIdeal.S64, .f32⟩ : BufTy).Contents (Elt F)) (x5 : (⟨Cert.ReferenceIdeal.S64x32, .f32⟩ : BufTy).Contents (Elt F))
  (h1 : W (Proc.devRef .tc main_v1) = val_main_v1 (F := F) x1) (h3 : W (Proc.devRef .tc main_v3) = val_main_v3 (F := F) x1)
  (h2 : W (Proc.devRef .tc main_arg2) = x2) (h4 : W (Proc.devRef .tc main_v48) = val_main_v50 (F := F) x0 x1 x2 x3 x4 x5)
include h1 h3 h2 h4

set_option maxHeartbeats 40000000 in
theorem sparse_second : StableHlo.after hostOps3_2 (StableHlo.after hostOps3_1 (StableHlo.after hostOps3 W)) (Proc.devRef .tc main_v89)
    = val_main_v91 (F := F) x0 x1 x2 x3 x4 x5 := by
  after_results_simp
  host_rest
  repeat (first | rw [h1] | rw [h3] | rw [h2] | rw [h4])
  rfl

end SecondSparse

variable (m : (ℓ : Loc nD τ sig) → Buf (Elt Ideal) ℓ) (ρ : Dev nD → PrngReg) (c : Dev nD)

/-! ## After the first bias region: the first layer's output -/

theorem W6_v47 : W6 m ρ c (Proc.devRef .tc main_v47) = val_main_v49 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W6_arr m ρ c 2).trans ((Cert.KernelIdeal.Blocks1.final (V5 m ρ) c).trans ?_)
  show Cert.KernelIdeal.Blocks1.layer (W5 m ρ c (Proc.devRef .tc main_v45)) (W5 m ρ c (Proc.devRef .tc main_v46)) = _
  rw [W5_v45 m ρ c, W5_v46 m ρ c]
  exact layer1_eq _ _
theorem W6_v1 : W6 m ρ c (Proc.devRef .tc main_v1) = val_main_v1 (F := Ideal) (m ((c : Thread nD τ).loc main_arg1)) :=
  (W6_of_ne m ρ c main_v1 (by decide)).trans (W5_v1 m ρ c)
theorem W6_v3 : W6 m ρ c (Proc.devRef .tc main_v3) = val_main_v3 (F := Ideal) (m ((c : Thread nD τ).loc main_arg1)) :=
  (W6_of_ne m ρ c main_v3 (by decide)).trans (W5_v3 m ρ c)
theorem W6_arg2 : W6 m ρ c (Proc.devRef .tc main_arg2) = m ((c : Thread nD τ).loc main_arg2) :=
  (W6_of_ne m ρ c main_arg2 (by decide)).trans (W5_arg2 m ρ c)
theorem W6_arg5 : W6 m ρ c (Proc.devRef .tc main_arg5) = m ((c : Thread nD τ).loc main_arg5) :=
  (W6_of_ne m ρ c main_arg5 (by decide)).trans (W5_arg5 m ρ c)
theorem W6_arg6 : W6 m ρ c (Proc.devRef .tc main_arg6) = m ((c : Thread nD τ).loc main_arg6) :=
  (W6_of_ne m ρ c main_arg6 (by decide)).trans (W5_arg6 m ρ c)

/-! ## After the second dense product -/

theorem W7_v48 : W7 m ρ c (Proc.devRef .tc main_v48) = val_main_v50 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W7_arr m ρ c 2).trans ((Cert.KernelIdeal.Blocks2.final (V6 m ρ) c).trans ?_)
  show Cert.KernelIdeal.Blocks2.product (W6 m ρ c (Proc.devRef .tc main_v47)) (W6 m ρ c (Proc.devRef .tc main_arg5)) = _
  rw [W6_v47 m ρ c, W6_arg5 m ρ c]
  rfl
theorem W7_v1 : W7 m ρ c (Proc.devRef .tc main_v1) = val_main_v1 (F := Ideal) (m ((c : Thread nD τ).loc main_arg1)) :=
  (W7_of_ne m ρ c main_v1 (by decide)).trans (W6_v1 m ρ c)
theorem W7_v3 : W7 m ρ c (Proc.devRef .tc main_v3) = val_main_v3 (F := Ideal) (m ((c : Thread nD τ).loc main_arg1)) :=
  (W7_of_ne m ρ c main_v3 (by decide)).trans (W6_v3 m ρ c)
theorem W7_arg2 : W7 m ρ c (Proc.devRef .tc main_arg2) = m ((c : Thread nD τ).loc main_arg2) :=
  (W7_of_ne m ρ c main_arg2 (by decide)).trans (W6_arg2 m ρ c)
theorem W7_arg6 : W7 m ρ c (Proc.devRef .tc main_arg6) = m ((c : Thread nD τ).loc main_arg6) :=
  (W7_of_ne m ρ c main_arg6 (by decide)).trans (W6_arg6 m ρ c)

/-! ## After the second sparse product (the last region's entry) -/

/-- The aggregated features of the second layer. -/
theorem W10_v89 : W10 m ρ c (Proc.devRef .tc main_v89) = val_main_v91 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  sparse_second (W7 m ρ c) _ _ _ _ _ _ (W7_v1 m ρ c) (W7_v3 m ρ c) (W7_arg2 m ρ c) (W7_v48 m ρ c)
/-- The second bias as a one-row matrix. -/
theorem W10_v90 : W10 m ρ c (Proc.devRef .tc main_v90) = shapeCast S1x32 (m ((c : Thread nD τ).loc main_arg6)) shapeCasts_S32_S1x32 := by
  show StableHlo.after hostOps3_2 (StableHlo.after hostOps3_1 (StableHlo.after hostOps3 (W7 m ρ c))) (Proc.devRef .tc main_v90) = _
  after_results_simp
  rw [W7_arg6 m ρ c]
  rfl

/-! ## The result -/

/-- The kernel's result buffer ends at the reference's result of the kernel's own arguments. -/
theorem W11_v91 : W11 m ρ c (Proc.devRef .tc main_v91) = val_main_v94 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W11_arr m ρ c 2).trans ((Cert.KernelIdeal.Blocks3.final (V10 m ρ) c).trans ?_)
  show Cert.KernelIdeal.Blocks3.layer (W10 m ρ c (Proc.devRef .tc main_v89)) (W10 m ρ c (Proc.devRef .tc main_v90)) = _
  rw [W10_v89 m ρ c, W10_v90 m ρ c]
  exact layer2_eq _ _

end Cert.KernelIdeal.Chain

end
-- ==== Proof.lean ====
/-
  Two graph-convolution layers, out = A·(relu(A·(x·W1) + b1)·W2) + b2 with A the symmetrically normalized
  adjacency (self loops added), computed two ways: the kernel runs the dense products and the bias (and rectifier)
  steps as four tiled regions of 10000-row blocks and leaves the sparse products to the host; the reference is the
  same composition on the host alone.

  Over the extended reals the two agree, entry for entry, with no condition on the inputs: a block of rows of a dense
  product is that block of the whole product (the change of float format inside the region is the identity and the
  accumulator starts at zero), a block of a bias layer is that block of the broadcast sum, the blocks cover every
  row, and the host operations of the sparse product are the same operations in both programs. No distributive or
  cancellation law is used, so finiteness of the inputs is never opened.

  The three frames are the generated ones (the reference's is its generated run with the result dropped); the
  idealization rewrote no operation, so `preserves` is trivial.
-/
import proofs.«137254_j7206955123357_1_alg».proof.Defs
import proofs.«137254_j7206955123357_1_alg».proof.Proof.Gen.Kernel
import proofs.«137254_j7206955123357_1_alg».proof.Proof.Gen.Kernel.Skeleton
import proofs.«137254_j7206955123357_1_alg».proof.Proof.Gen.Kernel.Launch
import proofs.«137254_j7206955123357_1_alg».proof.Proof.Gen.Kernel.Points
import proofs.«137254_j7206955123357_1_alg».proof.Proof.Gen.Kernel.Frame
import proofs.«137254_j7206955123357_1_alg».proof.Proof.Gen.KernelIdeal
import proofs.«137254_j7206955123357_1_alg».proof.Proof.Gen.KernelIdeal.Skeleton
import proofs.«137254_j7206955123357_1_alg».proof.Proof.Gen.KernelIdeal.Launch
import proofs.«137254_j7206955123357_1_alg».proof.Proof.Gen.KernelIdeal.Points
import proofs.«137254_j7206955123357_1_alg».proof.Proof.Gen.KernelIdeal.Frame
import proofs.«137254_j7206955123357_1_alg».proof.Proof.Gen.ReferenceIdeal
import proofs.«137254_j7206955123357_1_alg».proof.Proof.Gen.ReferenceIdeal.Run
import proofs.«137254_j7206955123357_1_alg».proof.Proof.Gen.ReferenceIdeal.Read
import proofs.«137254_j7206955123357_1_alg».proof.Proof.Gen.Pre_finite_inputs
import proofs.«137254_j7206955123357_1_alg».proof.Proof.KernelRun
import proofs.«137254_j7206955123357_1_alg».proof.Proof.ChainB
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ
theorem frame_kernelIdeal : Cert.frame_KernelIdeal := fun m ρ _ => Cert.KernelIdeal.Gen.frame m ρ
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both runs end with the result at the reference's function of the (agreeing) arguments. -/
theorem algebraic : Cert.algebraic_KernelIdeal_ReferenceIdeal := by
  intro m ρ m' ρ' _ hagree
  refine ⟨fun c => Cert.ReferenceIdeal.Read.val_main_v94 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    (θ_run Cert.KernelIdeal.defs _ _).mono (fun r h c => ⟨(h c).1.trans (Cert.KernelIdeal.Chain.W11_v91 m ρ c), (h c).2⟩)
      (Cert.KernelIdeal.RunValue.run_result (F := Ideal) m ρ), ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v94_eq, h0, h1, h2, h3, h4, h5, h6]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
